-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S10000x128 .f32) (main_arg1 : FVec F S128x256 .f32) (main_arg2 : FVec F S128x256 .f32) (main_arg3 : FVec F S256 .f32) (main_arg4 : FVec F S256x128 .f32) (main_arg5 : FVec F S256x128 .f32) (main_arg6 : FVec F S128 .f32) (main_arg7 : IVec S640000 32) (main_arg8 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S10000x128 : Shape := ⟨2, ![10000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S10000x256 : Shape := ⟨2, ![10000, 256]⟩
abbrev S256x256 : Shape := ⟨2, ![256, 256]⟩
abbrev S1x256 : Shape := ⟨2, ![1, 256]⟩
abbrev S1000x256 : Shape := ⟨2, ![1000, 256]⟩
abbrev S640000x256 : Shape := ⟨2, ![640000, 256]⟩
abbrev S10000x512 : Shape := ⟨2, ![10000, 512]⟩
abbrev S512x128 : Shape := ⟨2, ![512, 128]⟩
abbrev S1x128 : Shape := ⟨2, ![1, 128]⟩
abbrev S1000x512 : Shape := ⟨2, ![1000, 512]⟩
abbrev S1000x128 : Shape := ⟨2, ![1000, 128]⟩

abbrev nBuf : Space → Nat
  | .hbm => 67
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S128x256, .f32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S256x128, .f32⟩
  | .hbm, ⟨6, _⟩ => ⟨S128, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S10000x128, .f32⟩
  | .hbm, ⟨20, _⟩ => ⟨S640000x1, .i32⟩
  | .hbm, ⟨21, _⟩ => ⟨S10000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S10000, .f32⟩
  | .hbm, ⟨26, _⟩ => ⟨S640000x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x128, .f32⟩
  | .hbm, ⟨33, _⟩ => ⟨S10000x128, .f32⟩
  | .hbm, ⟨34, _⟩ => ⟨S10000x256, .f32⟩
  | .hbm, ⟨35, _⟩ => ⟨S256x256, .f32⟩
  | .hbm, ⟨36, _⟩ => ⟨S1x256, .f32⟩
  | .hbm, ⟨37, _⟩ => ⟨S10000x256, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000x256, .f32⟩
  | .hbm, ⟨47, _⟩ => ⟨S_, .f32⟩
  | .hbm, ⟨48, _⟩ => ⟨S10000x256, .f32⟩
  | .hbm, ⟨49, _⟩ => ⟨S640000x1, .i32⟩
  | .hbm, ⟨50, _⟩ => ⟨S10000x256, .f32⟩
  | .hbm, ⟨51, _⟩ => ⟨S_, .f32⟩
  | .hbm, ⟨52, _⟩ => ⟨S640000, .f32⟩
  | .hbm, ⟨53, _⟩ => ⟨S_, .f32⟩
  | .hbm, ⟨54, _⟩ => ⟨S10000, .f32⟩
  | .hbm, ⟨55, _⟩ => ⟨S640000x1, .i32⟩
  | .hbm, ⟨56, _⟩ => ⟨S10000, .f32⟩
  | .hbm, ⟨57, _⟩ => ⟨S_, .f32⟩
  | .hbm, ⟨58, _⟩ => ⟨S10000, .f32⟩
  | .hbm, ⟨59, _⟩ => ⟨S10000, .f32⟩
  | .hbm, ⟨60, _⟩ => ⟨S10000x1, .f32⟩
  | .hbm, ⟨61, _⟩ => ⟨S10000x256, .f32⟩
  | .hbm, ⟨62, _⟩ => ⟨S10000x256, .f32⟩
  | .hbm, ⟨63, _⟩ => ⟨S10000x512, .f32⟩
  | .hbm, ⟨64, _⟩ => ⟨S512x128, .f32⟩
  | .hbm, ⟨65, _⟩ => ⟨S1x128, .f32⟩
  | .hbm, ⟨66, _⟩ => ⟨S10000x128, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x512, .f32⟩
  | .local _ .vmem, ⟨7, _⟩ => ⟨S1000x512, .f32⟩
  | .local _ .vmem, ⟨8, _⟩ => ⟨S512x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  concatenates_S128x256_S128x256_S256x256_d0 : Shape.Concatenates [S128x256, S128x256] S256x256 0
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  concatenates_S256x128_S256x128_S512x128_d0 : Shape.Concatenates [S256x128, S256x128] S512x128 0
  shapeCasts_S128_S1x128 : S128.ShapeCasts S1x128
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S1000x256_S256x256_S1000x256_1_0_0_1_n_n_wf : DotDims.WF S1000x256 S256x256 S1000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S1000x512_S512x128_S1000x128_1_0_0_1_n_n_wf : DotDims.WF S1000x512 S512x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .f32 = 32 ∨ (Rect.block (s := S10000x128) S1000x128.size (cc1_transform_3 i) (hinb1_3 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf

abbrev win0_0 : Pipeline.Window sig grid0 :=
  Pipeline.Window.ofSpec (Memref.whole main_v19) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S640000x256 : Shape := ⟨2, ![640000, 256]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x256, .f32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S256x128, .f32⟩
  | .hbm, ⟨6, _⟩ => ⟨S128, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S10000x128, .f32⟩
  | .hbm, ⟨20, _⟩ => ⟨S640000x1, .i32⟩
  | .hbm, ⟨21, _⟩ => ⟨S10000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S10000, .f32⟩
  | .hbm, ⟨26, _⟩ => ⟨S640000x1, .i32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x128, .f32⟩
  | .hbm, ⟨33, _⟩ => ⟨S10000x128, .f32⟩
  | .hbm, ⟨34, _⟩ => ⟨S10000x256, .f32⟩
  | .hbm, ⟨35, _⟩ => ⟨S10000x256, .f32⟩
  | .hbm, ⟨36, _⟩ => ⟨S10000x256, .f32⟩
  | .hbm, ⟨37, _⟩ => ⟨S1x256, .f32⟩
  | .hbm, ⟨38, _⟩ => ⟨S10000x256, .f32⟩
  | .hbm, ⟨39, _⟩ => ⟨S10000x256, .f32⟩
  | .hbm, ⟨40, _⟩ => ⟨S_, .f32⟩
  | .hbm, ⟨41, _⟩ => ⟨S10000x256, .f32⟩
  | .hbm, ⟨42, _⟩ => ⟨S10000x256, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x256, .f32⟩
  | .hbm, ⟨52, _⟩ => ⟨S_, .f32⟩
  | .hbm, ⟨53, _⟩ => ⟨S10000x256, .f32⟩
  | .hbm, ⟨54, _⟩ => ⟨S640000x1, .i32⟩
  | .hbm, ⟨55, _⟩ => ⟨S10000x256, .f32⟩
  | .hbm, ⟨56, _⟩ => ⟨S_, .f32⟩
  | .hbm, ⟨57, _⟩ => ⟨S640000, .f32⟩
  | .hbm, ⟨58, _⟩ => ⟨S_, .f32⟩
  | .hbm, ⟨59, _⟩ => ⟨S10000, .f32⟩
  | .hbm, ⟨60, _⟩ => ⟨S640000x1, .i32⟩
  | .hbm, ⟨61, _⟩ => ⟨S10000, .f32⟩
  | .hbm, ⟨62, _⟩ => ⟨S_, .f32⟩
  | .hbm, ⟨63, _⟩ => ⟨S10000, .f32⟩
  | .hbm, ⟨64, _⟩ => ⟨S10000, .f32⟩
  | .hbm, ⟨65, _⟩ => ⟨S10000x1, .f32⟩
  | .hbm, ⟨66, _⟩ => ⟨S10000x256, .f32⟩
  | .hbm, ⟨67, _⟩ => ⟨S10000x256, .f32⟩
  | .hbm, ⟨68, _⟩ => ⟨S10000x128, .f32⟩
  | .hbm, ⟨69, _⟩ => ⟨S10000x128, .f32⟩
  | .hbm, ⟨70, _⟩ => ⟨S10000x128, .f32⟩
  | .hbm, ⟨71, _⟩ => ⟨S1x128, .f32⟩
  | .hbm, ⟨72, _⟩ => ⟨S10000x128, .f32⟩
  | .hbm, ⟨73, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x256_S10000x256_1_0_0_1_n_n_wf : DotDims.WF S10000x128 S128x256 S10000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S10000x256_S256x128_S10000x128_1_0_0_1_n_n_wf : DotDims.WF S10000x256 S256x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KernelRun.lean ====
/-
  The idealized kernel's run, with its result named.

  @main is four segments: a stretch of host operations (the mean aggregation of x over the edges and the two
  concatenations), the first layer's pallas_call, a second stretch of host operations (the same aggregation of the first
  layer's output), the second layer's pallas_call. The contents of every buffer at each of the five boundaries are a fold
  from the launch memory: `W0` the launch, `W1` after the first stretch, `W2` after the first call (its output array at
  what its ten write-backs leave, every other buffer as entered), `W3` after the second stretch, `W4` after the second
  call. Every weakly fair execution ends with each unscoped buffer at `W4`; read at the program's result, that is the second
  call's output array after its ten write-backs, and read at an argument it is the launch contents.
-/
import proofs.«126035_j29162827939935_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory is asked to satisfy on core `c`: every unscoped buffer holds the last boundary's contents. -/
abbrev EndsAtLast (c : Dev nD) (s : MemSt nD τ sig (Elt F)) : Prop :=
  ∀ b ∈ Pipeline.ucRefs τ sig, s.mem (((c : Thread nD τ)).1, b) = W4 m ρ c b

set_option backward.isDefEq.respectTransparency.types false in
/-- Every weakly fair execution of @main terminates without a fault; the result buffer ends at the second call's output
    array after all its write-backs (that call entered from the contents `W3`), and every argument ends as launched. -/
theorem run_result : θ_run defs (onTc (τ := τ) (main (F := F))) ⟨m, fun _ => 0, ρ⟩ (fun r => ∀ c : Dev nD,
      r.2.mem ((c.tc : Thread nD τ).loc main_v45) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    -- @main is the run of its four segments
    (fun c Q => by rw [main_run m ρ c])
    -- the two calls are two different pipelines
    (by simp only [segs, Pipeline.Seg.pipes_host, Pipeline.Seg.pipes_region, Pipeline.Seg.pipes_nil]; decide)
    -- no core owes another anything, at no level, and no ghost resource rides beside the pipelines'
    (O₀ := 0) (hL := fun _ _ => rfl) (G := fun _ => iprop(emp))
    (u₀ := initOf (Pipeline.cells cfgs cellOf_inj) (Pipeline.launchToks cfgs cellOf_inj))
    (hu₀ := by
      -- the launch's ghost element is the pipelines' own initial element, beside nothing per core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the thread state before the first segment: every unscoped buffer at the launch contents; after the last: at `W4`
    (T₀ := fun c => iprop(StableHlo.held (c : Thread nD τ) (Pipeline.ucRefs τ sig) (W0 m ρ c) ∗ R c)) (Tₙ := Tₙ m ρ)
    -- each segment is entered from what the one before it leaves
    (hch := ⟨fun _ => .rfl, fun _ => .rfl, fun _ => .rfl, fun _ => .rfl, fun _ => .rfl⟩)
    (hinit := by
      -- what the launch deals each core is its first thread state
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := EndsAtLast m ρ)
    (hfin := fun c s' => by
      -- the last thread state, held beside a final state, says what that state's memory holds
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      -- the result is the second call's output window; an argument is written by no operation and no call
      ⟨(h c _ (mem_uc main_v45 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LayerOne.lean ====
/-
  The first layer's pallas_call, as one function of the three arrays it is entered with.

  The call walks the 10000 rows in ten blocks of 1000. At a point it holds rows 1000·t … 1000·t + 999 of the
  [10000, 256] activations X, the whole [256, 256] weights W and the whole [1, 256] bias row b, and stores into rows
  1000·t … 1000·t + 999 of the [10000, 256] output the block

      max (X_t · W + b, 0):

  the narrowing of the operands to bf16 is the identity on the extended reals and the product is accumulated into a
  zero block, so entry (p, q) of the block is max (∑ k, X (1000·t + p, k) · W (k, q) + b (0, q), 0). A row of the
  output depends on the same row of X only; the ten blocks tile the output, so after the run the output array is that
  expression at every index, whatever the contents the call was entered with.
-/
import proofs.«126035_j29162827939935_1_alg».proof.Proof.Gen.KernelIdeal.Frame
import proofs.«126035_j29162827939935_1_alg».proof.Proof.LibPlainMatmul
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.LayerOne

open Cert.KernelIdeal Cert.KernelIdeal.Gen
open Idealize.ShloMosaic Idealize.ShloMosaic.TcCoe Idealize.ShloMosaic.ValueIdx Idealize.SL.Sem

/-- The layer as a function of whole arrays: entry (r, q) is the positive part of row r of X against column q of W, plus b (0, q). -/
def layer (X : S10000x256.Idx → Elt Ideal .f32) (W : S256x256.Idx → Elt Ideal .f32) (b : S1x256.Idx → Elt Ideal .f32) :
    S10000x256.Idx → Elt Ideal .f32 :=
  fun i => max ((∑ k : Fin 256, X (ix2 (i 0) k) * W (ix2 k (i 1))) + b (ix2 (0 : Fin 1) (i 1))) (Ideal.ofBits .f32 0x00000000#32)

/-- The body's stored value at entry (p, q) of the block, from the three loaded blocks. -/
theorem payload_apply (x0 : Vec Ideal S1000x256 .f32) (x1 : Vec Ideal S256x256 .f32) (x2 : Vec Ideal S1x256 .f32)
    (p : Fin 1000) (q : Fin 256) :
    k0_pay1 (F := Ideal) x0 x1 x2 (ix2 p q)
      = max ((∑ k : Fin 256, x0 (ix2 p k) * x1 (ix2 k q)) + x2 (ix2 (0 : Fin 1) q)) (Ideal.ofBits .f32 0x00000000#32) := by
  unfold k0_pay1
  rw [maximumf_apply, addf_apply, broadcast_apply, shapeCast_self, shapeCast_self, shapeCast_self]
  refine congrArg₂ max (congrArg₂ (· + ·) ?_ ?_) rfl
  · exact (Cert.Lib.matmul_plain_zero_apply none (truncf .bf16 x0 bitsLt_bf16_f32) (truncf .bf16 x1 bitsLt_bf16_f32) p q).trans rfl
  · exact broadcastTo_1b_ab_apply x2 broadcasts_S1x256_S1000x256 p q

theorem origin : (![0, 0] : Fin 2 → Nat) = fun _ => 0 := funext fun a => by fin_cases a <;> rfl

/-- The four index maps over the grid: the activations' block and the output's block are block t of the rows and the
    whole width; the weights and the bias row are one block, the same at every point. -/
theorem index_maps : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Each of the ten row blocks is some point's. -/
theorem every_block : ∀ r : Fin 10, ∃ t : Fin cfg0.N, win0_3.index t = ![r.val, 0] :=
  (by decide +kernel : ∀ r : Fin 10, ∃ t : Fin grid0.N, win0_3.index t = ![r.val, 0])

section
variable (V : (c : Dev nD) → (b : Ref sig .tc) → Buf (Elt Ideal) ((c : Thread nD τ).loc b))

/-- What point t writes back is block t of the layer's function of the arrays the call was entered with. -/
theorem written_back (c : Dev nD) (t : Fin cfg0.N) :
    (dat0 V c).flushed 3 t
      = ((cfg0.win 3).blk t).view.read (Elt Ideal) (layer (V c main_v19) (V c main_v20) (V c main_v21)) := by
  show (cfg0.win 3).cut (grid0.coords t) ((dat0 V c).after 3 t) = _
  rw [after0_3]
  unfold out0_3
  rw [View.canon_unit_zero origin]
  simp only [View.ld_unit_zero (S := S1000x256) origin, View.ld_unit_zero (S := S256x256) origin, View.ld_unit_zero (S := S1x256) origin]
  obtain ⟨e0, e1, e2, e3, e4, e5, e6, -⟩ := index_maps t
  refine funext fun (j : S1000x256.Idx) => ?_
  obtain ⟨p, q, rfl⟩ : ∃ (p : Fin 1000) (q : Fin 256), j = ix2 p q := ⟨j 0, j 1, eq_ix2 j⟩
  show k0_pay1 (F := Ideal) (iblk0 V c 0 t) (iblk0 V c 1 t) (iblk0 V c 2 t) (ix2 p q)
      = layer (V c main_v19) (V c main_v20) (V c main_v21) (((cfg0.win 3).blk t).view.emb (ix2 p q))
  refine (payload_apply (iblk0 V c 0 t) (iblk0 V c 1 t) (iblk0 V c 2 t) p q).trans ?_
  -- the three blocks read where the output's block says: the same rows of X, all of W, all of b
  have rX : ∀ k : Fin 256, iblk0 V c 0 t (ix2 p k)
      = V c main_v19 (ix2 ((((cfg0.win 3).blk t).view.emb (ix2 p q)) 0) k) := fun k => by
    show V c main_v19 (((cfg0.win 0).blk t).view.emb (ix2 p k)) = _
    refine congrArg (V c main_v19) (funext fun a => Fin.ext ?_)
    match a with
    | ⟨0, _⟩ => show win0_0.index t (0 : Fin 2) * 1000 + 1 * p.val = win0_3.index t (0 : Fin 2) * 1000 + 1 * p.val; omega
    | ⟨1, _⟩ => show win0_0.index t (1 : Fin 2) * 256 + 1 * k.val = k.val; omega
  have rW : ∀ k : Fin 256, iblk0 V c 1 t (ix2 k q)
      = V c main_v20 (ix2 k ((((cfg0.win 3).blk t).view.emb (ix2 p q)) 1)) := fun k => by
    show V c main_v20 (((cfg0.win 1).blk t).view.emb (ix2 k q)) = _
    refine congrArg (V c main_v20) (funext fun a => Fin.ext ?_)
    match a with
    | ⟨0, _⟩ => show win0_1.index t (0 : Fin 2) * 256 + 1 * k.val = k.val; omega
    | ⟨1, _⟩ => show win0_1.index t (1 : Fin 2) * 256 + 1 * q.val = win0_3.index t (1 : Fin 2) * 256 + 1 * q.val; omega
  have rb : iblk0 V c 2 t (ix2 (0 : Fin 1) q)
      = V c main_v21 (ix2 (0 : Fin 1) ((((cfg0.win 3).blk t).view.emb (ix2 p q)) 1)) := by
    show V c main_v21 (((cfg0.win 2).blk t).view.emb (ix2 (0 : Fin 1) q)) = _
    refine congrArg (V c main_v21) (funext fun a => Fin.ext ?_)
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega
  rw [Finset.sum_congr rfl (fun k _ => by rw [rX k, rW k]), rb]
  rfl

/-- An index is in point t's output block iff each coordinate is in the block's range on its axis. -/
theorem in_block (t : Fin cfg0.N) (i : S10000x256.Idx) :
    i ∈ ((cfg0.win 3).blk t).view.set
      ↔ ∀ a : Fin 2, win0_3.index t a * S1000x256.size a ≤ (i a).val ∧ (i a).val < win0_3.index t a * S1000x256.size a + S1000x256.size a := by
  show i ∈ ((View.whole main_v22).slice (win0_3.rect t)).set ↔ _
  rw [View.set_slice_whole, Rect.mem_set_unit]
  exact Iff.rfl

/-- Every index of the output is in the block of the point that holds its row: row r is in block r / 1000. -/
theorem tiled (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ := every_block ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [in_block]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 256 ≤ (i 1).val ∧ (i 1).val < win0_3.index t (1 : Fin 2) * 256 + 256; omega

/-- THE OUTPUT ARRAY after the call: the layer's function of the arrays the call was entered with. -/
theorem output (c : Dev nD) :
    (dat0 V c).arrAt 3 cfg0.N = layer (V c main_v19) (V c main_v20) (V c main_v21) :=
  (dat0 V c).arrAt_eq_of_cover 3 _ (fun t _ => written_back V c t) tiled

end

end Cert.KernelIdeal.LayerOne

end
-- ==== Proof.LayerTwo.lean ====
/-
  The second layer's pallas_call, as one function of the three arrays it is entered with.

  The call walks the 10000 rows in ten blocks of 1000. At a point it holds rows 1000·t … 1000·t + 999 of the
  [10000, 512] activations X, the whole [512, 128] weights W and the whole [1, 128] bias row b, and stores into rows
  1000·t … 1000·t + 999 of the [10000, 128] output the block

      X_t · W + b:

  the narrowing of the operands to bf16 is the identity on the extended reals and the product is accumulated into a
  zero block, so entry (p, q) of the block is ∑ k, X (1000·t + p, k) · W (k, q) + b (0, q). A row of the
  output depends on the same row of X only; the ten blocks tile the output, so after the run the output array is that
  expression at every index, whatever the contents the call was entered with.
-/
import proofs.«126035_j29162827939935_1_alg».proof.Proof.Gen.KernelIdeal.Frame
import proofs.«126035_j29162827939935_1_alg».proof.Proof.LibPlainMatmul
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.LayerTwo

open Cert.KernelIdeal Cert.KernelIdeal.Gen
open Idealize.ShloMosaic Idealize.ShloMosaic.TcCoe Idealize.ShloMosaic.ValueIdx Idealize.SL.Sem

/-- The layer as a function of whole arrays: entry (r, q) is row r of X against column q of W, plus b (0, q). -/
def layer (X : S10000x512.Idx → Elt Ideal .f32) (W : S512x128.Idx → Elt Ideal .f32) (b : S1x128.Idx → Elt Ideal .f32) :
    S10000x128.Idx → Elt Ideal .f32 :=
  fun i => (∑ k : Fin 512, X (ix2 (i 0) k) * W (ix2 k (i 1))) + b (ix2 (0 : Fin 1) (i 1))

/-- The body's stored value at entry (p, q) of the block, from the three loaded blocks. -/
theorem payload_apply (x0 : Vec Ideal S1000x512 .f32) (x1 : Vec Ideal S512x128 .f32) (x2 : Vec Ideal S1x128 .f32)
    (p : Fin 1000) (q : Fin 128) :
    k1_pay1 (F := Ideal) x0 x1 x2 (ix2 p q)
      = (∑ k : Fin 512, x0 (ix2 p k) * x1 (ix2 k q)) + x2 (ix2 (0 : Fin 1) q) := by
  unfold k1_pay1
  rw [addf_apply, shapeCast_self, shapeCast_self, shapeCast_self]
  refine congrArg₂ (· + ·) ?_ ?_
  · exact (Cert.Lib.matmul_plain_zero_apply none (truncf .bf16 x0 bitsLt_bf16_f32) (truncf .bf16 x1 bitsLt_bf16_f32) p q).trans rfl
  · exact broadcastTo_1b_ab_apply x2 broadcasts_S1x128_S1000x128 p q

theorem origin : (![0, 0] : Fin 2 → Nat) = fun _ => 0 := funext fun a => by fin_cases a <;> rfl

/-- The four index maps over the grid: the activations' block and the output's block are block t of the rows and the
    whole width; the weights and the bias row are one block, the same at every point. -/
theorem index_maps : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Each of the ten row blocks is some point's. -/
theorem every_block : ∀ r : Fin 10, ∃ t : Fin cfg1.N, win1_3.index t = ![r.val, 0] :=
  (by decide +kernel : ∀ r : Fin 10, ∃ t : Fin grid1.N, win1_3.index t = ![r.val, 0])

section
variable (V : (c : Dev nD) → (b : Ref sig .tc) → Buf (Elt Ideal) ((c : Thread nD τ).loc b))

/-- What point t writes back is block t of the layer's function of the arrays the call was entered with. -/
theorem written_back (c : Dev nD) (t : Fin cfg1.N) :
    (dat1 V c).flushed 3 t
      = ((cfg1.win 3).blk t).view.read (Elt Ideal) (layer (V c main_v42) (V c main_v43) (V c main_v44)) := by
  show (cfg1.win 3).cut (grid1.coords t) ((dat1 V c).after 3 t) = _
  rw [after1_3]
  unfold out1_3
  rw [View.canon_unit_zero origin]
  simp only [View.ld_unit_zero (S := S1000x512) origin, View.ld_unit_zero (S := S512x128) origin, View.ld_unit_zero (S := S1x128) origin]
  obtain ⟨e0, e1, e2, e3, e4, e5, e6, -⟩ := index_maps t
  refine funext fun (j : S1000x128.Idx) => ?_
  obtain ⟨p, q, rfl⟩ : ∃ (p : Fin 1000) (q : Fin 128), j = ix2 p q := ⟨j 0, j 1, eq_ix2 j⟩
  show k1_pay1 (F := Ideal) (iblk1 V c 0 t) (iblk1 V c 1 t) (iblk1 V c 2 t) (ix2 p q)
      = layer (V c main_v42) (V c main_v43) (V c main_v44) (((cfg1.win 3).blk t).view.emb (ix2 p q))
  refine (payload_apply (iblk1 V c 0 t) (iblk1 V c 1 t) (iblk1 V c 2 t) p q).trans ?_
  -- the three blocks read where the output's block says: the same rows of X, all of W, all of b
  have rX : ∀ k : Fin 512, iblk1 V c 0 t (ix2 p k)
      = V c main_v42 (ix2 ((((cfg1.win 3).blk t).view.emb (ix2 p q)) 0) k) := fun k => by
    show V c main_v42 (((cfg1.win 0).blk t).view.emb (ix2 p k)) = _
    refine congrArg (V c main_v42) (funext fun a => Fin.ext ?_)
    match a with
    | ⟨0, _⟩ => show win1_0.index t (0 : Fin 2) * 1000 + 1 * p.val = win1_3.index t (0 : Fin 2) * 1000 + 1 * p.val; omega
    | ⟨1, _⟩ => show win1_0.index t (1 : Fin 2) * 512 + 1 * k.val = k.val; omega
  have rW : ∀ k : Fin 512, iblk1 V c 1 t (ix2 k q)
      = V c main_v43 (ix2 k ((((cfg1.win 3).blk t).view.emb (ix2 p q)) 1)) := fun k => by
    show V c main_v43 (((cfg1.win 1).blk t).view.emb (ix2 k q)) = _
    refine congrArg (V c main_v43) (funext fun a => Fin.ext ?_)
    match a with
    | ⟨0, _⟩ => show win1_1.index t (0 : Fin 2) * 512 + 1 * k.val = k.val; omega
    | ⟨1, _⟩ => show win1_1.index t (1 : Fin 2) * 128 + 1 * q.val = win1_3.index t (1 : Fin 2) * 128 + 1 * q.val; omega
  have rb : iblk1 V c 2 t (ix2 (0 : Fin 1) q)
      = V c main_v44 (ix2 (0 : Fin 1) ((((cfg1.win 3).blk t).view.emb (ix2 p q)) 1)) := by
    show V c main_v44 (((cfg1.win 2).blk t).view.emb (ix2 (0 : Fin 1) q)) = _
    refine congrArg (V c main_v44) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [Finset.sum_congr rfl (fun k _ => by rw [rX k, rW k]), rb]
  rfl

/-- An index is in point t's output block iff each coordinate is in the block's range on its axis. -/
theorem in_block (t : Fin cfg1.N) (i : S10000x128.Idx) :
    i ∈ ((cfg1.win 3).blk t).view.set
      ↔ ∀ a : Fin 2, win1_3.index t a * S1000x128.size a ≤ (i a).val ∧ (i a).val < win1_3.index t a * S1000x128.size a + S1000x128.size a := by
  show i ∈ ((View.whole main_v45).slice (win1_3.rect t)).set ↔ _
  rw [View.set_slice_whole, Rect.mem_set_unit]
  exact Iff.rfl

/-- Every index of the output is in the block of the point that holds its row: row r is in block r / 1000. -/
theorem tiled (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  obtain ⟨t, ht⟩ := every_block ⟨(i 0).val / 1000, by omega⟩
  have q0 : win1_3.index t (0 : Fin 2) = (i 0).val / 1000 := congrFun ht 0
  have q1 : win1_3.index t (1 : Fin 2) = 0 := congrFun ht 1
  refine ⟨t, flush1_3 t, ?_⟩
  rw [in_block]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 128 ≤ (i 1).val ∧ (i 1).val < win1_3.index t (1 : Fin 2) * 128 + 128; omega

/-- THE OUTPUT ARRAY after the call: the layer's function of the arrays the call was entered with. -/
theorem output (c : Dev nD) :
    (dat1 V c).arrAt 3 cfg1.N = layer (V c main_v42) (V c main_v43) (V c main_v44) :=
  (dat1 V c).arrAt_eq_of_cover 3 _ (fun t _ => written_back V c t) tiled

end

end Cert.KernelIdeal.LayerTwo

end
-- ==== Proof.Entry.lean ====
/-
  What the two calls are entered with.

  Before the first call the host computes, from the node features x and the edge lists, the mean of x over each node's
  incoming edges (a gather of the source rows, a scatter-add into the destination rows, a division by the in-degree
  clamped below at 1), lays x and that mean side by side, lays the two first-layer weight matrices one above the other,
  and reshapes the bias to a row. Before the second call it does the same with the first call's output h in the place of
  x and the second layer's weights and bias. Each of these arrays is a composition of host operations of the arguments
  (and of h): this module names them, reading the fold of host operations at the buffer in question. The mean itself is
  never opened: it is the same composition of operations in the reference, and is named by the reference's own stages.
-/
import proofs.«126035_j29162827939935_1_alg».proof.Proof.Gen.KernelIdeal.Frame
import proofs.«126035_j29162827939935_1_alg».proof.Proof.Gen.ReferenceIdeal.Read
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable {F : FTy → Type} [FloatOps F]

/-! ## The arrays, as functions of their operands -/

/-- x beside the mean of x over each node's incoming edges (that mean: the reference's stage of the same operations). -/
def besideMean₁ (x : (⟨S10000x128, .f32⟩ : BufTy).Contents (Elt F)) (src dst : (⟨S640000, .i32⟩ : BufTy).Contents (Elt F)) : (⟨S10000x256, .f32⟩ : BufTy).Contents (Elt F) :=
  concatenate S10000x256 1 [⟨S10000x128, x⟩, ⟨S10000x128, Cert.ReferenceIdeal.Read.val_main_v18 (F := F) x src dst⟩]
    concatenates_S10000x128_S10000x128_S10000x256_d1

/-- The first layer's self weights above its neighbour weights. -/
def stacked₁ (u w : (⟨S128x256, .f32⟩ : BufTy).Contents (Elt F)) : (⟨S256x256, .f32⟩ : BufTy).Contents (Elt F) :=
  concatenate S256x256 0 [⟨S128x256, u⟩, ⟨S128x256, w⟩] concatenates_S128x256_S128x256_S256x256_d0

/-- The first layer's bias as one row. -/
def asRow₁ (b : (⟨S256, .f32⟩ : BufTy).Contents (Elt F)) : (⟨S1x256, .f32⟩ : BufTy).Contents (Elt F) := shapeCast S1x256 b shapeCasts_S256_S1x256

/-- The mean of the rows of an [10000, 256] array `H` over each node's incoming edges: gather the source rows, add them
    into the destination rows, divide by the clamped in-degree. Spelt with the reference's stages for the parts that
    do not depend on `H` (the zero array, the two index columns, the clamped in-degree broadcast over the columns). -/
def neighbourMean (H : (⟨S10000x256, .f32⟩ : BufTy).Contents (Elt F)) (src dst : (⟨S640000, .i32⟩ : BufTy).Contents (Elt F)) : (⟨S10000x256, .f32⟩ : BufTy).Contents (Elt F) :=
  Host.divf
    (Host.scatterAdd scatter_S10000x256_S640000x1_S640000x256_1_0_0_1 (Cert.ReferenceIdeal.Read.val_main_v33 (F := F))
      (Cert.ReferenceIdeal.Read.val_main_v34 (F := F) dst)
      (Host.gather gather_S10000x256_S640000x1_S640000x256_1_0_n_n_0_1_1256 H (Cert.ReferenceIdeal.Read.val_main_v31 (F := F) src)))
    (Cert.ReferenceIdeal.Read.val_main_v43 (F := F) dst)

/-- h beside its neighbour mean. -/
def besideMean₂ (H : (⟨S10000x256, .f32⟩ : BufTy).Contents (Elt F)) (src dst : (⟨S640000, .i32⟩ : BufTy).Contents (Elt F)) : (⟨S10000x512, .f32⟩ : BufTy).Contents (Elt F) :=
  concatenate S10000x512 1 [⟨S10000x256, H⟩, ⟨S10000x256, neighbourMean H src dst⟩]
    concatenates_S10000x256_S10000x256_S10000x512_d1

/-- The second layer's self weights above its neighbour weights. -/
def stacked₂ (u w : (⟨S256x128, .f32⟩ : BufTy).Contents (Elt F)) : (⟨S512x128, .f32⟩ : BufTy).Contents (Elt F) :=
  concatenate S512x128 0 [⟨S256x128, u⟩, ⟨S256x128, w⟩] concatenates_S256x128_S256x128_S512x128_d0

/-- The second layer's bias as one row. -/
def asRow₂ (b : (⟨S128, .f32⟩ : BufTy).Contents (Elt F)) : (⟨S1x128, .f32⟩ : BufTy).Contents (Elt F) := shapeCast S1x128 b shapeCasts_S128_S1x128

/-! ## The two stretches of host operations, from any contents -/

section AnyContents
variable (W : Valuation τ sig (Elt F))

set_option maxHeartbeats 1000000 in
theorem stretch₁_X : StableHlo.after hostOps0 W (Proc.devRef .tc main_v19)
    = besideMean₁ (W (Proc.devRef .tc main_arg0)) (W (Proc.devRef .tc main_arg7)) (W (Proc.devRef .tc main_arg8)) := by
  after_results_simp <;> rfl

theorem stretch₁_W : StableHlo.after hostOps0 W (Proc.devRef .tc main_v20) = stacked₁ (W (Proc.devRef .tc main_arg1)) (W (Proc.devRef .tc main_arg2)) := by
  after_results_simp <;> rfl

theorem stretch₁_b : StableHlo.after hostOps0 W (Proc.devRef .tc main_v21) = asRow₁ (W (Proc.devRef .tc main_arg3)) := by
  after_results_simp <;> rfl

set_option maxHeartbeats 1000000 in
theorem stretch₂_X : StableHlo.after hostOps1 W (Proc.devRef .tc main_v42)
    = besideMean₂ (W (Proc.devRef .tc main_v22)) (W (Proc.devRef .tc main_arg7)) (W (Proc.devRef .tc main_arg8)) := by
  after_results_simp <;> rfl

theorem stretch₂_W : StableHlo.after hostOps1 W (Proc.devRef .tc main_v43) = stacked₂ (W (Proc.devRef .tc main_arg4)) (W (Proc.devRef .tc main_arg5)) := by
  after_results_simp <;> rfl

theorem stretch₂_b : StableHlo.after hostOps1 W (Proc.devRef .tc main_v44) = asRow₂ (W (Proc.devRef .tc main_arg6)) := by
  after_results_simp <;> rfl

end AnyContents

variable (m : (ℓ : Loc nD τ sig) → Buf (Elt F) ℓ) (ρ : Dev nD → PrngReg)

/-! ## The first call's arrays: the first stretch from the launch memory -/

theorem first_X (c : Dev nD) : V1 m ρ c main_v19 = besideMean₁ (m ((c : Thread nD τ).loc main_arg0)) (m ((c : Thread nD τ).loc main_arg7)) (m ((c : Thread nD τ).loc main_arg8)) := stretch₁_X (W0 m ρ c)

theorem first_W (c : Dev nD) : V1 m ρ c main_v20 = stacked₁ (m ((c : Thread nD τ).loc main_arg1)) (m ((c : Thread nD τ).loc main_arg2)) := stretch₁_W (W0 m ρ c)

theorem first_b (c : Dev nD) : V1 m ρ c main_v21 = asRow₁ (m ((c : Thread nD τ).loc main_arg3)) := stretch₁_b (W0 m ρ c)

/-! ## Between the calls: the first call's output, and the arguments still as launched -/

/-- After the first call its output buffer holds its output array. -/
theorem first_output (c : Dev nD) : W2 m ρ c (Proc.devRef .tc main_v22) = (dat0 (V1 m ρ) c).arrAt 3 cfg0.N :=
  W2_arr m ρ c 3

/-- Argument 4 is written by no operation of the first stretch and is not the first call's output. -/
theorem kept_arg4 (c : Dev nD) : W2 m ρ c (Proc.devRef .tc main_arg4) = m ((c : Thread nD τ).loc main_arg4) :=
  (W2_of_ne m ρ c main_arg4 (by decide)).trans
    ((StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- Argument 5 is written by no operation of the first stretch and is not the first call's output. -/
theorem kept_arg5 (c : Dev nD) : W2 m ρ c (Proc.devRef .tc main_arg5) = m ((c : Thread nD τ).loc main_arg5) :=
  (W2_of_ne m ρ c main_arg5 (by decide)).trans
    ((StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- Argument 6 is written by no operation of the first stretch and is not the first call's output. -/
theorem kept_arg6 (c : Dev nD) : W2 m ρ c (Proc.devRef .tc main_arg6) = m ((c : Thread nD τ).loc main_arg6) :=
  (W2_of_ne m ρ c main_arg6 (by decide)).trans
    ((StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- Argument 7 is written by no operation of the first stretch and is not the first call's output. -/
theorem kept_arg7 (c : Dev nD) : W2 m ρ c (Proc.devRef .tc main_arg7) = m ((c : Thread nD τ).loc main_arg7) :=
  (W2_of_ne m ρ c main_arg7 (by decide)).trans
    ((StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- Argument 8 is written by no operation of the first stretch and is not the first call's output. -/
theorem kept_arg8 (c : Dev nD) : W2 m ρ c (Proc.devRef .tc main_arg8) = m ((c : Thread nD τ).loc main_arg8) :=
  (W2_of_ne m ρ c main_arg8 (by decide)).trans
    ((StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-! ## The second call's arrays: the second stretch from the contents the first call leaves -/

theorem second_X (c : Dev nD) :
    V3 m ρ c main_v42 = besideMean₂ ((dat0 (V1 m ρ) c).arrAt 3 cfg0.N) (m ((c : Thread nD τ).loc main_arg7)) (m ((c : Thread nD τ).loc main_arg8)) :=
  (stretch₂_X (W2 m ρ c)).trans (congr (congrArg₂ besideMean₂ (first_output m ρ c) (kept_arg7 m ρ c)) (kept_arg8 m ρ c))

theorem second_W (c : Dev nD) : V3 m ρ c main_v43 = stacked₂ (m ((c : Thread nD τ).loc main_arg4)) (m ((c : Thread nD τ).loc main_arg5)) :=
  (stretch₂_W (W2 m ρ c)).trans (congrArg₂ stacked₂ (kept_arg4 m ρ c) (kept_arg5 m ρ c))

theorem second_b (c : Dev nD) : V3 m ρ c main_v44 = asRow₂ (m ((c : Thread nD τ).loc main_arg6)) :=
  (stretch₂_b (W2 m ρ c)).trans (congrArg asRow₂ (kept_arg6 m ρ c))

end Cert.KernelIdeal.Entry

end
-- ==== Proof.LibConcatContraction.lean ====
/-
  A contraction over a concatenated axis.

  Lay two [M, d] arrays X, Y side by side along the columns, and two [d, N] arrays U, W one above the other along the
  rows. Contracting the [M, d + d] array against the [d + d, N] array over the long axis gives, at entry (a, b),

      ∑ k < d + d, [X | Y] (a, k) · [U ; W] (k, b)  =  ∑ k < d, X (a, k) · U (k, b)  +  ∑ k < d, Y (a, k) · W (k, b):

  the first d terms read the first pieces, the last d terms the second pieces. Only the commutative-monoid laws of the
  sum are used, so the identity holds over the extended reals with no finiteness assumption.
-/
import Idealize.ShloMosaic.Lib.Pipeline.Value
import Idealize.ShloMosaic.Lib.ValueIdx

noncomputable section

namespace Cert.Lib

open Idealize.ShloMosaic Idealize.ShloMosaic.ValueIdx

variable {α : Type}

/-- Two [M, d] arrays side by side along the columns: column `k < d` of the long array is the first array's column `k`. -/
theorem concat_cols_left {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = k.val) :
    concatenate ⟨2, ![M, D]⟩ 1 [⟨⟨2, ![M, d]⟩, X⟩, ⟨⟨2, ![M, d]⟩, Y⟩] h (ix2 a k') = X (ix2 a k) :=
  concatenate_pair_apply_left 1 X Y h (ix2 a k') rfl (ix2 a k) fun b => by
    match b with
    | ⟨0, _⟩ => rfl
    | ⟨1, _⟩ => exact hk.symm

/-- … and column `d + k` is the second array's column `k`. -/
theorem concat_cols_right {M d D : Nat} (X Y : (⟨2, ![M, d]⟩ : Shape).Idx → α)
    (h : Shape.Concatenates [⟨2, ![M, d]⟩, ⟨2, ![M, d]⟩] ⟨2, ![M, D]⟩ 1) (a : Fin M) (k : Fin d) (k' : Fin D)
    (hk : k'.val = d + k.val) :
    concatenate ⟨2, ![M, D]⟩ 1 [⟨⟨2, ![M, d]⟩, X⟩, ⟨⟨2, ![M, d]⟩, Y⟩] h (ix2 a k') = Y (ix2 a k) :=
  concatenate_pair_apply_right 1 X Y h (ix2 a k') rfl rfl (ix2 a k)
    (fun b hb => by
      match b, hb with
      | ⟨0, _⟩, _ => rfl
      | ⟨1, _⟩, hb => exact absurd rfl hb)
    (by show k.val + d = k'.val; omega)

/-- Two [d, N] arrays one above the other along the rows: row `k < d` of the tall array is the first array's row `k`. -/
theorem concat_rows_left {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = k.val) :
    concatenate ⟨2, ![D, N]⟩ 0 [⟨⟨2, ![d, N]⟩, U⟩, ⟨⟨2, ![d, N]⟩, W⟩] h (ix2 k' b) = U (ix2 k b) :=
  concatenate_pair_apply_left 0 U W h (ix2 k' b) rfl (ix2 k b) fun ax => by
    match ax with
    | ⟨0, _⟩ => exact hk.symm
    | ⟨1, _⟩ => rfl

/-- … and row `d + k` is the second array's row `k`. -/
theorem concat_rows_right {d D N : Nat} (U W : (⟨2, ![d, N]⟩ : Shape).Idx → α)
    (h : Shape.Concatenates [⟨2, ![d, N]⟩, ⟨2, ![d, N]⟩] ⟨2, ![D, N]⟩ 0) (b : Fin N) (k : Fin d) (k' : Fin D)
    (hk : k'.val = d + k.val) :
    concatenate ⟨2, ![D, N]⟩ 0 [⟨⟨2, ![d, N]⟩, U⟩, ⟨⟨2, ![d, N]⟩, W⟩] h (ix2 k' b) = W (ix2 k b) :=
  concatenate_pair_apply_right 0 U W h (ix2 k' b) rfl rfl (ix2 k b)
    (fun ax hax => by
      match ax, hax with
      | ⟨0, _⟩, hax => exact absurd rfl hax
      | ⟨1, _⟩, _ => rfl)
    (by show k.val + d = k'.val; omega)

/-- The contraction of `[X | Y]` against `[U ; W]` over the long axis is the contraction of `X` against `U` plus that of
    `Y` against `W`, entry by entry, in any commutative additive monoid with a product. -/
theorem sum_concat_contraction {β : Type} [AddCommMonoid β] [Mul β] {M d D N : Nat} (hD : D = d + d)
    (X Y : (⟨2, ![M, d]⟩ : Shape).Idx → β) (U W : (⟨2, ![d, N]⟩ : Shape).Idx → β)
    (hx : Shape.Concatenates [⟨2, ![M, d]⟩, ⟨2, ![M, d]⟩] ⟨2, ![M, D]⟩ 1)
    (hw : Shape.Concatenates [⟨2, ![d, N]⟩, ⟨2, ![d, N]⟩] ⟨2, ![D, N]⟩ 0) (a : Fin M) (b : Fin N) :
    ∑ k : Fin D, concatenate ⟨2, ![M, D]⟩ 1 [⟨⟨2, ![M, d]⟩, X⟩, ⟨⟨2, ![M, d]⟩, Y⟩] hx (ix2 a k)
        * concatenate ⟨2, ![D, N]⟩ 0 [⟨⟨2, ![d, N]⟩, U⟩, ⟨⟨2, ![d, N]⟩, W⟩] hw (ix2 k b)
      = ∑ k : Fin d, X (ix2 a k) * U (ix2 k b) + ∑ k : Fin d, Y (ix2 a k) * W (ix2 k b) := by
  subst hD
  rw [Fin.sum_univ_add]
  congr 1
  · refine Finset.sum_congr rfl fun k _ => ?_
    rw [concat_cols_left X Y hx a k (Fin.castAdd d k) rfl, concat_rows_left U W hw b k (Fin.castAdd d k) rfl]
  · refine Finset.sum_congr rfl fun k _ => ?_
    rw [concat_cols_right X Y hx a k (Fin.natAdd d k) rfl, concat_rows_right U W hw b k (Fin.natAdd d k) rfl]

end Cert.Lib

end
-- ==== Proof.Bridge.lean ====
/-
  The kernel's result is the reference's.

  Each layer of the kernel multiplies the activations laid beside their neighbour mean, [h | n], by the self weights laid
  above the neighbour weights, [U ; W], and adds the bias row; the reference multiplies h by U and n by W separately, adds
  the two products and adds the bias broadcast over the rows. Entry by entry these are the same extended real:

      ∑ k < 2d, [h | n] (a, k) · [U ; W] (k, b)  =  ∑ k < d, h (a, k) · U (k, b)  +  ∑ k < d, n (a, k) · W (k, b),

  a regrouping of one finite sum, which holds on the extended reals without any finiteness of the entries; the bias row
  read at (0, b) and the bias vector broadcast and read at (a, b) are both its entry b; and the positive part after the
  first layer is the maximum with zero on both sides. The neighbour mean is the same composition of host operations of
  the same operands on both sides and is never opened. So the first call's output array is the reference's hidden
  activations, hence the second call's neighbour mean is the reference's, and the second call's output array is the
  reference's result.
-/
import proofs.«126035_j29162827939935_1_alg».proof.Proof.LayerOne
import proofs.«126035_j29162827939935_1_alg».proof.Proof.LayerTwo
import proofs.«126035_j29162827939935_1_alg».proof.Proof.Entry
import proofs.«126035_j29162827939935_1_alg».proof.Proof.LibConcatContraction
import proofs.«126035_j29162827939935_1_alg».proof.Proof.Gen.ReferenceIdeal.Read
import Idealize.ShloMosaic.Lib.ValueLayout

set_option maxRecDepth 16384

noncomputable section

namespace Cert.Bridge

open Cert.KernelIdeal Cert.KernelIdeal.Gen Cert.ReferenceIdeal.Read
open Idealize.ShloMosaic Idealize.ShloMosaic.TcCoe Idealize.ShloMosaic.ValueIdx Idealize.SL.Sem

/-! ## The first layer -/

/-- The first layer's function of [x | mean x], [U ; W] and the bias row is the reference's hidden activations
    `max (x · U + mean x · W + bias, 0)`. -/
theorem first_layer (x0 : (⟨S10000x128, .f32⟩ : BufTy).Contents (Elt Ideal)) (x1 x2 : (⟨S128x256, .f32⟩ : BufTy).Contents (Elt Ideal)) (x3 : (⟨S256, .f32⟩ : BufTy).Contents (Elt Ideal))
    (x7 x8 : (⟨S640000, .i32⟩ : BufTy).Contents (Elt Ideal)) :
    LayerOne.layer (Entry.besideMean₁ (F := Ideal) x0 x7 x8) (Entry.stacked₁ (F := Ideal) x1 x2) (Entry.asRow₁ (F := Ideal) x3)
      = val_main_v25 (F := Ideal) x0 x1 x2 x3 x7 x8 := by
  funext i
  obtain ⟨a, b, rfl⟩ : ∃ (a : Fin 10000) (b : Fin 256), i = ix2 a b := ⟨i 0, i 1, eq_ix2 i⟩
  have eL : ∀ k : Fin 128, lidx_main_v19 (ix2 a b) k = ix2 a k := fun k => funext fun ax => Fin.ext (by
    match ax with | ⟨0, _⟩ => rfl | ⟨1, _⟩ => rfl)
  have eR : ∀ k : Fin 128, ridx_main_v19 (ix2 a b) k = ix2 k b := fun k => funext fun ax => Fin.ext (by
    match ax with | ⟨0, _⟩ => rfl | ⟨1, _⟩ => rfl)
  have eL' : ∀ k : Fin 128, lidx_main_v20 (ix2 a b) k = ix2 a k := fun k => funext fun ax => Fin.ext (by
    match ax with | ⟨0, _⟩ => rfl | ⟨1, _⟩ => rfl)
  have eR' : ∀ k : Fin 128, ridx_main_v20 (ix2 a b) k = ix2 k b := fun k => funext fun ax => Fin.ext (by
    match ax with | ⟨0, _⟩ => rfl | ⟨1, _⟩ => rfl)
  have eb : idx_main_v22 (idx_main_v23 (ix2 a b)) = ix1 b := funext fun ax => Fin.ext (by
    match ax with | ⟨0, _⟩ => rfl)
  rw [val_main_v25_apply, val_main_v24_apply, val_main_v21_apply, val_main_v19_apply, val_main_v20_apply,
    val_main_v23_apply, val_main_v22_apply, val_main_call0_v0_apply, val_main_call0_cst_apply]
  simp only [eL, eR, eL', eR', eb]
  show max ((∑ k : Fin 256,
        concatenate S10000x256 1 [⟨S10000x128, x0⟩, ⟨S10000x128, val_main_v18 (F := Ideal) x0 x7 x8⟩]
            concatenates_S10000x128_S10000x128_S10000x256_d1 (ix2 a k)
          * concatenate S256x256 0 [⟨S128x256, x1⟩, ⟨S128x256, x2⟩] concatenates_S128x256_S128x256_S256x256_d0 (ix2 k b))
        + shapeCast S1x256 x3 shapeCasts_S256_S1x256 (ix2 (0 : Fin 1) b)) (Ideal.ofBits .f32 0x00000000#32)
      = max (((∑ k : Fin 128, x0 (ix2 a k) * x1 (ix2 k b))
          + ∑ k : Fin 128, val_main_v18 (F := Ideal) x0 x7 x8 (ix2 a k) * x2 (ix2 k b)) + x3 (ix1 b))
        (Ideal.ofBits .f32 0x00000000#32)
  rw [Cert.Lib.sum_concat_contraction (d := 128) rfl x0 (val_main_v18 (F := Ideal) x0 x7 x8) x1 x2
      concatenates_S10000x128_S10000x128_S10000x256_d1 concatenates_S128x256_S128x256_S256x256_d0 a b,
    shapeCast_a_1a_apply x3 shapeCasts_S256_S1x256 (0 : Fin 1) b]

/-! ## The second layer -/

/-- The second layer's function of [h | mean h], [U ; W] and the bias row, h the reference's hidden activations, is the
    reference's result `h · U + mean h · W + bias`: the mean of h, as the second stretch of host operations computes it, is
    the reference's stage of the same operations. -/
theorem second_layer (x0 : (⟨S10000x128, .f32⟩ : BufTy).Contents (Elt Ideal)) (x1 x2 : (⟨S128x256, .f32⟩ : BufTy).Contents (Elt Ideal)) (x3 : (⟨S256, .f32⟩ : BufTy).Contents (Elt Ideal))
    (x4 x5 : (⟨S256x128, .f32⟩ : BufTy).Contents (Elt Ideal)) (x6 : (⟨S128, .f32⟩ : BufTy).Contents (Elt Ideal)) (x7 x8 : (⟨S640000, .i32⟩ : BufTy).Contents (Elt Ideal)) :
    LayerTwo.layer (Entry.besideMean₂ (F := Ideal) (val_main_v25 (F := Ideal) x0 x1 x2 x3 x7 x8) x7 x8)
        (Entry.stacked₂ (F := Ideal) x4 x5) (Entry.asRow₂ (F := Ideal) x6)
      = val_main_v50 (F := Ideal) x0 x1 x2 x3 x4 x5 x6 x7 x8 := by
  funext i
  obtain ⟨a, b, rfl⟩ : ∃ (a : Fin 10000) (b : Fin 128), i = ix2 a b := ⟨i 0, i 1, eq_ix2 i⟩
  have eL : ∀ k : Fin 256, lidx_main_v45 (ix2 a b) k = ix2 a k := fun k => funext fun ax => Fin.ext (by
    match ax with | ⟨0, _⟩ => rfl | ⟨1, _⟩ => rfl)
  have eR : ∀ k : Fin 256, ridx_main_v45 (ix2 a b) k = ix2 k b := fun k => funext fun ax => Fin.ext (by
    match ax with | ⟨0, _⟩ => rfl | ⟨1, _⟩ => rfl)
  have eL' : ∀ k : Fin 256, lidx_main_v46 (ix2 a b) k = ix2 a k := fun k => funext fun ax => Fin.ext (by
    match ax with | ⟨0, _⟩ => rfl | ⟨1, _⟩ => rfl)
  have eR' : ∀ k : Fin 256, ridx_main_v46 (ix2 a b) k = ix2 k b := fun k => funext fun ax => Fin.ext (by
    match ax with | ⟨0, _⟩ => rfl | ⟨1, _⟩ => rfl)
  have eb : idx_main_v48 (idx_main_v49 (ix2 a b)) = ix1 b := funext fun ax => Fin.ext (by
    match ax with | ⟨0, _⟩ => rfl)
  rw [val_main_v50_apply, val_main_v47_apply, val_main_v45_apply, val_main_v46_apply, val_main_v49_apply, val_main_v48_apply]
  simp only [eL, eR, eL', eR', eb]
  show (∑ k : Fin 512,
        concatenate S10000x512 1 [⟨S10000x256, val_main_v25 (F := Ideal) x0 x1 x2 x3 x7 x8⟩,
            ⟨S10000x256, val_main_v44 (F := Ideal) x0 x1 x2 x3 x7 x8⟩]
            concatenates_S10000x256_S10000x256_S10000x512_d1 (ix2 a k)
          * concatenate S512x128 0 [⟨S256x128, x4⟩, ⟨S256x128, x5⟩] concatenates_S256x128_S256x128_S512x128_d0 (ix2 k b))
        + shapeCast S1x128 x6 shapeCasts_S128_S1x128 (ix2 (0 : Fin 1) b)
      = ((∑ k : Fin 256, val_main_v25 (F := Ideal) x0 x1 x2 x3 x7 x8 (ix2 a k) * x4 (ix2 k b))
          + ∑ k : Fin 256, val_main_v44 (F := Ideal) x0 x1 x2 x3 x7 x8 (ix2 a k) * x5 (ix2 k b)) + x6 (ix1 b)
  rw [Cert.Lib.sum_concat_contraction (d := 256) rfl (val_main_v25 (F := Ideal) x0 x1 x2 x3 x7 x8)
      (val_main_v44 (F := Ideal) x0 x1 x2 x3 x7 x8) x4 x5
      concatenates_S10000x256_S10000x256_S10000x512_d1 concatenates_S256x128_S256x128_S512x128_d0 a b,
    shapeCast_a_1a_apply x6 shapeCasts_S128_S1x128 (0 : Fin 1) b]

/-! ## The kernel's two output arrays -/

variable (m : (ℓ : Loc nD τ sig) → Buf (Elt Ideal) ℓ) (ρ : Dev nD → PrngReg)

/-- The first call's output array after its write-backs is the reference's hidden activations of the launch arguments. -/
theorem hidden (c : Dev nD) :
    (dat0 (V1 m ρ) c).arrAt 3 cfg0.N
      = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) :=
  (LayerOne.output (V1 m ρ) c).trans
    ((congr (congrArg₂ LayerOne.layer (Entry.first_X m ρ c) (Entry.first_W m ρ c)) (Entry.first_b m ρ c)).trans
      (first_layer _ _ _ _ _ _))

/-- The second call's output array after its write-backs is the reference's result stage of the launch arguments. -/
theorem kernel_result (c : Dev nD) :
    (dat1 (V3 m ρ) c).arrAt 3 cfg1.N
      = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (LayerTwo.output (V3 m ρ) c).trans
    ((congr (congrArg₂ LayerTwo.layer (Entry.second_X m ρ c) (Entry.second_W m ρ c)) (Entry.second_b m ρ c)).trans
      ((congrArg (fun H => LayerTwo.layer (Entry.besideMean₂ (F := Ideal) H (m ((c : Thread nD τ).loc main_arg7)) (m ((c : Thread nD τ).loc main_arg8)))
          (Entry.stacked₂ (F := Ideal) (m ((c : Thread nD τ).loc main_arg4)) (m ((c : Thread nD τ).loc main_arg5))) (Entry.asRow₂ (F := Ideal) (m ((c : Thread nD τ).loc main_arg6)))) (hidden m ρ c)).trans
        (second_layer _ _ _ _ _ _ _ _ _)))

end Cert.Bridge

end
-- ==== Proof.lean ====
/-
  A two-layer GraphSAGE network with mean aggregation, against its jnp reference, over the extended reals.

  Both programs compute, for node features x [10000, 128] and 640000 edges (src, dst),

      h   = max (x · U₁ + mean x · W₁ + b₁, 0)            [10000, 256]
      out = h · U₂ + mean h · W₂ + b₂                      [10000, 128]

  where `mean z` is, row by row, the sum of the rows z[src e] over the edges e with dst e = the row, divided by the
  in-degree clamped below at 1. The reference forms the two matrix products of each layer separately and adds them. The
  kernel lays z beside mean z and U above W and forms ONE product per layer inside a pallas_call that walks the rows in
  ten blocks of 1000, adding the bias row and (first layer) taking the positive part before it stores the block; the
  aggregation is host code around the two calls, the same operations as the reference's.

  At the ideal instance the narrowing of the product's operands to bf16 is the identity and the product over the
  concatenated axis is the sum of the two products (a regrouping of a finite sum, valid for infinite entries too), so
  no use is made of the finiteness of the inputs. The proof:
  * KernelRun — the kernel's run ends with the result buffer at the second call's output array after its write-backs;
  * LayerOne, LayerTwo — each call's output array is one function of the three arrays the call is entered with;
  * Entry — those arrays, as compositions of host operations of the arguments (and of the first call's output);
  * Bridge — each layer's function of the concatenated arrays is the reference's stage, so the result arrays agree.
  The ideal pass rewrote nothing in the kernel, so there is nothing to preserve; the three frames are the generated ones
  (the reference's is its generated run with the result dropped).
-/
import proofs.«126035_j29162827939935_1_alg».proof.Defs
import proofs.«126035_j29162827939935_1_alg».proof.Proof.Gen.Kernel
import proofs.«126035_j29162827939935_1_alg».proof.Proof.Gen.Kernel.Frame
import proofs.«126035_j29162827939935_1_alg».proof.Proof.Gen.KernelIdeal
import proofs.«126035_j29162827939935_1_alg».proof.Proof.Gen.KernelIdeal.Frame
import proofs.«126035_j29162827939935_1_alg».proof.Proof.Gen.ReferenceIdeal
import proofs.«126035_j29162827939935_1_alg».proof.Proof.Gen.ReferenceIdeal.Run
import proofs.«126035_j29162827939935_1_alg».proof.Proof.Gen.ReferenceIdeal.Read
import proofs.«126035_j29162827939935_1_alg».proof.Proof.Gen.Pre_finite_inputs
import proofs.«126035_j29162827939935_1_alg».proof.Proof.KernelRun
import proofs.«126035_j29162827939935_1_alg».proof.Proof.Bridge

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both programs end with the same result array: the reference's result stage of
    the kernel's arguments. -/
theorem algebraic : Cert.algebraic_KernelIdeal_ReferenceIdeal := by
  intro m ρ m' ρ' _ hagree
  refine ⟨fun c => Cert.ReferenceIdeal.Read.val_main_v50 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Bridge.kernel_result m ρ c), (h c).2⟩) (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v50_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
